-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x101 : Shape := ⟨2, ![262144, 101]⟩
abbrev S101x101 : Shape := ⟨2, ![101, 101]⟩
abbrev S_ : Shape := ⟨0, ![]⟩

class Facts : Prop where
  bcast_S_S262144x101 : S_.BroadcastsInDim S262144x101 (![] : Fin 0 → Fin S262144x101.rank)
  reducesTo_S262144x101_S_d0_1 : S262144x101.ReducesTo [0, 1] S_
  h_S_ : 0 < S_.numel
  bcast_S_S101x101 : S_.BroadcastsInDim S101x101 (![] : Fin 0 → Fin S101x101.rank)
  reducesTo_S101x101_S_d0_1 : S101x101.ReducesTo [0, 1] S_

variable [Facts]

def fn_part1 {F : FTy → Type} [FloatOps F] (main_arg4 : FVec F S101x101 .f32) (main_v13 : IVec S_ 1) (main_v16 : IVec S101x101 1) : IVec S_ 1 :=
  let main_c_5 : IVec S_ 1 := constantI S_ 1 1#1
  let main_v17 : IVec S_ 1 := (fun x v => Host.reduce IntOp.andi x v reducesTo_S101x101_S_d0_1 h_S_) main_v16 main_c_5
  let main_v18 : IVec S_ 1 := andi main_v13 main_v17
  let main_v19 : FVec F S101x101 .f32 := Host.absf main_arg4
  let main_cst_6 : FVec F S_ .f32 := constant S_ .f32 0x7F800000#32
  let main_v20 : FVec F S101x101 .f32 := broadcastInDim S101x101 ![] bcast_S_S101x101 main_cst_6
  let main_v21 : IVec S101x101 1 := cmpf .olt main_v19 main_v20
  let main_c_7 : IVec S_ 1 := constantI S_ 1 1#1
  let main_v22 : IVec S_ 1 := (fun x v => Host.reduce IntOp.andi x v reducesTo_S101x101_S_d0_1 h_S_) main_v21 main_c_7
  let main_v23 : IVec S_ 1 := andi main_v18 main_v22
  main_v23

def fn {F : FTy → Type} [FloatOps F] (main_arg0 : FVec F S262144x101 .f32) (main_arg1 : FVec F S101x101 .f32) (main_arg2 : FVec F S101x101 .f32) (main_arg3 : FVec F S101x101 .f32) (main_arg4 : FVec F S101x101 .f32) : IVec S_ 1 :=
  let main_v0 : FVec F S262144x101 .f32 := Host.absf main_arg0
  let main_cst : FVec F S_ .f32 := constant S_ .f32 0x7F800000#32
  let main_v1 : FVec F S262144x101 .f32 := broadcastInDim S262144x101 ![] bcast_S_S262144x101 main_cst
  let main_v2 : IVec S262144x101 1 := cmpf .olt main_v0 main_v1
  let main_c : IVec S_ 1 := constantI S_ 1 1#1
  let main_v3 : IVec S_ 1 := (fun x v => Host.reduce IntOp.andi x v reducesTo_S262144x101_S_d0_1 h_S_) main_v2 main_c
  let main_v4 : FVec F S101x101 .f32 := Host.absf main_arg1
  let main_cst_0 : FVec F S_ .f32 := constant S_ .f32 0x7F800000#32
  let main_v5 : FVec F S101x101 .f32 := broadcastInDim S101x101 ![] bcast_S_S101x101 main_cst_0
  let main_v6 : IVec S101x101 1 := cmpf .olt main_v4 main_v5
  let main_c_1 : IVec S_ 1 := constantI S_ 1 1#1
  let main_v7 : IVec S_ 1 := (fun x v => Host.reduce IntOp.andi x v reducesTo_S101x101_S_d0_1 h_S_) main_v6 main_c_1
  let main_v8 : IVec S_ 1 := andi main_v3 main_v7
  let main_v9 : FVec F S101x101 .f32 := Host.absf main_arg2
  let main_cst_2 : FVec F S_ .f32 := constant S_ .f32 0x7F800000#32
  let main_v10 : FVec F S101x101 .f32 := broadcastInDim S101x101 ![] bcast_S_S101x101 main_cst_2
  let main_v11 : IVec S101x101 1 := cmpf .olt main_v9 main_v10
  let main_c_3 : IVec S_ 1 := constantI S_ 1 1#1
  let main_v12 : IVec S_ 1 := (fun x v => Host.reduce IntOp.andi x v reducesTo_S101x101_S_d0_1 h_S_) main_v11 main_c_3
  let main_v13 : IVec S_ 1 := andi main_v8 main_v12
  let main_v14 : FVec F S101x101 .f32 := Host.absf main_arg3
  let main_cst_4 : FVec F S_ .f32 := constant S_ .f32 0x7F800000#32
  let main_v15 : FVec F S101x101 .f32 := broadcastInDim S101x101 ![] bcast_S_S101x101 main_cst_4
  let main_v16 : IVec S101x101 1 := cmpf .olt main_v14 main_v15
  fn_part1 (F := F) main_arg4 main_v13 main_v16
-- ==== Kernel.lean ====
abbrev S262144x101 : Shape := ⟨2, ![262144, 101]⟩
abbrev S101x101 : Shape := ⟨2, ![101, 101]⟩
abbrev S_ : Shape := ⟨0, ![]⟩
abbrev S262144x101x1 : Shape := ⟨3, ![262144, 101, 1]⟩
abbrev S16384x101 : Shape := ⟨2, ![16384, 101]⟩

abbrev nBuf : Space → Nat
  | .hbm => 14
  | .vmem => 5
  | .smem => 0
  | _ => 0

abbrev bufTy : (tb : Table) → Fin (tcTables nBuf tb) → BufTy
  | .hbm, ⟨0, _⟩ => ⟨S262144x101, .f32⟩
  | .hbm, ⟨1, _⟩ => ⟨S101x101, .f32⟩
  | .hbm, ⟨2, _⟩ => ⟨S101x101, .f32⟩
  | .hbm, ⟨3, _⟩ => ⟨S101x101, .f32⟩
  | .hbm, ⟨4, _⟩ => ⟨S101x101, .f32⟩
  | .hbm, ⟨5, _⟩ => ⟨S101x101, .f32⟩
  | .hbm, ⟨6, _⟩ => ⟨S101x101, .f32⟩
  | .hbm, ⟨7, _⟩ => ⟨S101x101, .f32⟩
  | .hbm, ⟨8, _⟩ => ⟨S101x101, .f32⟩
  | .hbm, ⟨9, _⟩ => ⟨S_, .f32⟩
  | .hbm, ⟨10, _⟩ => ⟨S101x101, .f32⟩
  | .hbm, ⟨11, _⟩ => ⟨S101x101, .f32⟩
  | .hbm, ⟨12, _⟩ => ⟨S262144x101, .f32⟩
  | .hbm, ⟨13, _⟩ => ⟨S262144x101x1, .f32⟩
  | .local _ .vmem, ⟨0, _⟩ => ⟨S16384x101, .f32⟩
  | .local _ .vmem, ⟨1, _⟩ => ⟨S16384x101, .f32⟩
  | .local _ .vmem, ⟨2, _⟩ => ⟨S101x101, .f32⟩
  | .local _ .vmem, ⟨3, _⟩ => ⟨S16384x101, .f32⟩
  | .local _ .vmem, ⟨4, _⟩ => ⟨S16384x101, .f32⟩
  | _, _ => ⟨S262144x101, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_cst : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x101 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S101x101 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x101 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S101x101_S101x101_1_0 : S101x101.Transposes [1, 0] S101x101
  bcast_S_S101x101 : S_.BroadcastsInDim S101x101 (![] : Fin 0 → Fin S101x101.rank)
  bcast_S262144x101_S262144x101x1_0_1 : S262144x101.BroadcastsInDim S262144x101x1 (![0, 1] : Fin 2 → Fin S262144x101x1.rank)
  inb_S16384x101_S16384x101_0_0 : ∀ a, (![0, 0] : Fin 2 → Nat) a + S16384x101.size a ≤ S16384x101.size a
  h_S16384x101 : 0 < S16384x101.numel
  inb_S101x101_S101x101_0_0 : ∀ a, (![0, 0] : Fin 2 → Nat) a + S101x101.size a ≤ S101x101.size a
  h_S101x101 : 0 < S101x101.numel
  shapeCasts_S101x101_S101x101 : S101x101.ShapeCasts S101x101
  dot_S101x101_S101x101_S101x101_1_0_0_1_n_n_wf : DotDims.WF S101x101 S101x101 S101x101 [1] [0] [0] [1] [] []
  dot_S16384x101_S101x101_S16384x101_1_0_0_1_n_n_wf : DotDims.WF S16384x101 S101x101 S16384x101 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x101.size a ≤ S262144x101.size a
  hwx0_0 : ∀ i : grid0.Coords, EltTy.bits .f32 = 32 ∨ (Rect.block (s := S262144x101) S16384x101.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S101x101.size a ≤ S101x101.size a
  hwx0_1 : ∀ i : grid0.Coords, EltTy.bits .f32 = 32 ∨ (Rect.block (s := S101x101) S101x101.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x101.size a ≤ S262144x101.size a
  hwx0_2 : ∀ i : grid0.Coords, EltTy.bits .f32 = 32 ∨ (Rect.block (s := S262144x101) S16384x101.size (cc0_transform_2 i) (hinb0_2 i)).WholeWords (EltTy.packing .f32)

variable [Facts₀]

def dot_S101x101_S101x101_S101x101_1_0_0_1_n_n : DotDims S101x101 S101x101 S101x101 where
  lhsContracting := [1]
  rhsContracting := [0]
  lhsNonContracting := [0]
  rhsNonContracting := [1]
  lhsBatch := []
  rhsBatch := []
  wf := dot_S101x101_S101x101_S101x101_1_0_0_1_n_n_wf
def dot_S16384x101_S101x101_S16384x101_1_0_0_1_n_n : DotDims S16384x101 S101x101 S16384x101 where
  lhsContracting := [1]
  rhsContracting := [0]
  lhsNonContracting := [0]
  rhsNonContracting := [1]
  lhsBatch := []
  rhsBatch := []
  wf := dot_S16384x101_S101x101_S16384x101_1_0_0_1_n_n_wf

abbrev win0_0 : Pipeline.Window sig grid0 :=
  Pipeline.Window.ofSpec (Memref.whole main_arg0) S16384x101.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S101x101.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S16384x101.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x101 : Shape := ⟨2, ![262144, 101]⟩
abbrev S101x101 : Shape := ⟨2, ![101, 101]⟩
abbrev S_ : Shape := ⟨0, ![]⟩
abbrev S262144x101x1 : Shape := ⟨3, ![262144, 101, 1]⟩

abbrev nBuf : Space → Nat
  | .hbm => 14
  | .vmem => 0
  | .smem => 0
  | _ => 0

abbrev bufTy : (tb : Table) → Fin (tcTables nBuf tb) → BufTy
  | .hbm, ⟨0, _⟩ => ⟨S262144x101, .f32⟩
  | .hbm, ⟨1, _⟩ => ⟨S101x101, .f32⟩
  | .hbm, ⟨2, _⟩ => ⟨S101x101, .f32⟩
  | .hbm, ⟨3, _⟩ => ⟨S101x101, .f32⟩
  | .hbm, ⟨4, _⟩ => ⟨S101x101, .f32⟩
  | .hbm, ⟨5, _⟩ => ⟨S262144x101, .f32⟩
  | .hbm, ⟨6, _⟩ => ⟨S262144x101, .f32⟩
  | .hbm, ⟨7, _⟩ => ⟨S262144x101, .f32⟩
  | .hbm, ⟨8, _⟩ => ⟨S262144x101, .f32⟩
  | .hbm, ⟨9, _⟩ => ⟨S262144x101, .f32⟩
  | .hbm, ⟨10, _⟩ => ⟨S_, .f32⟩
  | .hbm, ⟨11, _⟩ => ⟨S262144x101, .f32⟩
  | .hbm, ⟨12, _⟩ => ⟨S262144x101, .f32⟩
  | .hbm, ⟨13, _⟩ => ⟨S262144x101x1, .f32⟩
  | _, _ => ⟨S262144x101, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S262144x101 : S_.BroadcastsInDim S262144x101 (![] : Fin 0 → Fin S262144x101.rank)
  bcast_S262144x101_S262144x101x1_0_1 : S262144x101.BroadcastsInDim S262144x101x1 (![0, 1] : Fin 2 → Fin S262144x101x1.rank)
  dot_S262144x101_S101x101_S262144x101_1_1_0_0_n_n_wf : DotDims.WF S262144x101 S101x101 S262144x101 [1] [1] [0] [0] [] []

variable [Facts₀]

def dot_S262144x101_S101x101_S262144x101_1_1_0_0_n_n : DotDims S262144x101 S101x101 S262144x101 where
  lhsContracting := [1]
  rhsContracting := [1]
  lhsNonContracting := [0]
  rhsNonContracting := [0]
  lhsBatch := []
  rhsBatch := []
  wf := dot_S262144x101_S101x101_S262144x101_1_1_0_0_n_n_wf

class Facts : Prop extends Facts₀ where

variable [Facts]
-- ==== Proof.Finite.lean ====
/-
  From the precondition to "every entry is a real number".
  The precondition is the conjunction, over the five argument arrays, of `all(|a| < +∞)`. An extended real whose
  absolute value max(a, −a) lies strictly below +∞ is neither infinity (both infinities have absolute value +∞), and an
  `all` that holds gives the comparison at every index. So under the precondition no entry of any argument is ±∞.
-/
import proofs.«167064_j26577257627813_2_alg».proof.Pre_finite_inputs
import Idealize.ShloMosaic.PureOps.Ideal.Laws
import Idealize.ShloMosaic.Lib.Pipeline.Value
import Idealize.ShloMosaic.Lib.ReduceAll
import Idealize.ShloMosaic.Lib.Affine

noncomputable section

namespace Cert.Finite

open Idealize.ShloMosaic

/-- The pattern with exponent all ones and fraction zero denotes +∞. -/
theorem ofBits_inf : Ideal.ofBits .f32 0x7F800000#32 = ⊤ := by
  simp [Ideal.ofBits, Ideal.ieee]

/-- An extended real whose absolute value compares below +∞ is neither infinity. -/
theorem finite_of_abs_lt (x : EReal)
    (h : Ideal.cmp .olt (max x (-x)) (Ideal.ofBits .f32 0x7F800000#32) = 1#1) : x ≠ ⊤ ∧ x ≠ ⊥ := by
  rw [ofBits_inf] at h
  have hlt : max x (-x) < ⊤ := by
    by_contra hc
    simp [Ideal.cmp, hc] at h
  constructor
  · rintro rfl; simp at hlt
  · rintro rfl; simp at hlt

instance : Subsingleton (⟨0, ![]⟩ : Shape).Idx := ⟨fun a b => funext fun d => d.elim0⟩

/-- One array: if `all(|a| < +∞)` holds then every entry of `a` is finite. -/
theorem all_finite {n0 n1 : Nat} (a : FVec Ideal ⟨2, ![n0, n1]⟩ .f32)
    (hb : (⟨0, ![]⟩ : Shape).BroadcastsInDim ⟨2, ![n0, n1]⟩ (![] : Fin 0 → Fin 2))
    (hr : (⟨2, ![n0, n1]⟩ : Shape).ReducesTo [0, 1] ⟨0, ![]⟩) (hu : 0 < (⟨0, ![]⟩ : Shape).numel)
    (j : (⟨0, ![]⟩ : Shape).Idx)
    (e : Host.reduce IntOp.andi
          (cmpf .olt (Host.absf a) (broadcastInDim ⟨2, ![n0, n1]⟩ ![] hb (constant ⟨0, ![]⟩ .f32 0x7F800000#32)))
          (constantI ⟨0, ![]⟩ 1 1#1) hr hu j = 1#1)
    (i : (⟨2, ![n0, n1]⟩ : Shape).Idx) : a i ≠ ⊤ ∧ a i ≠ ⊥ := by
  have h := Host.reduce_andi_all _ _ hr hu j e i
  have hbc : broadcastInDim ⟨2, ![n0, n1]⟩ ![] hb (constant (F := Ideal) ⟨0, ![]⟩ .f32 0x7F800000#32) i
      = Ideal.ofBits .f32 0x7F800000#32 :=
    broadcastInDim_apply _ hb _ i (fun d => d.elim0) (fun d => d.elim0)
  have h' : Ideal.cmp .olt (max (a i) (-(a i)))
      (broadcastInDim ⟨2, ![n0, n1]⟩ ![] hb (constant (F := Ideal) ⟨0, ![]⟩ .f32 0x7F800000#32) i) = 1#1 := h
  rw [hbc] at h'
  exact finite_of_abs_lt _ h'

variable [Cert.Pre_finite_inputs.Facts]

/-- Under the precondition every entry of each of the five argument arrays is finite. -/
theorem of_pre (a0 : FVec Ideal Cert.Pre_finite_inputs.S262144x101 .f32)
    (a1 a2 a3 a4 : FVec Ideal Cert.Pre_finite_inputs.S101x101 .f32)
    (h : Cert.Pre_finite_inputs.fn (F := Ideal) a0 a1 a2 a3 a4 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) ∧ (∀ i, a4 i ≠ ⊤ ∧ a4 i ≠ ⊥) := by
  have h0 := congrFun h (fun d => d.elim0)
  dsimp only [Cert.Pre_finite_inputs.fn, Cert.Pre_finite_inputs.fn_part1, andi] at h0
  obtain ⟨h0123, e4⟩ := IntOp.andi_eq_one.mp h0
  obtain ⟨h012, e3⟩ := IntOp.andi_eq_one.mp h0123
  obtain ⟨h01, e2⟩ := IntOp.andi_eq_one.mp h012
  obtain ⟨e0, e1⟩ := IntOp.andi_eq_one.mp h01
  exact ⟨all_finite a0 _ _ _ _ e0, all_finite a1 _ _ _ _ e1, all_finite a2 _ _ _ _ e2,
    all_finite a3 _ _ _ _ e3, all_finite a4 _ _ _ _ e4⟩

end Cert.Finite

end
-- ==== Proof.SumExchange.lean ====
/-
  The law that joins the two programs. The kernel first combines the four small matrices,
      A[k,d] = (Σ_n Wre[k,n]·ReJ[n,d] − Σ_n Wim[k,n]·ImJ[n,d]) · r,
  and then multiplies a row of x by it; the reference multiplies the row of x by ReJ and ImJ first, then by Wre and
  Wim, subtracts and scales last. For REAL entries the two are the same number: a product distributes over a
  difference and over a finite sum, and the two finite sums may be taken in either order.
  On the extended reals those laws fail at the infinities, so the statement for extended-real families assumes
  every entry finite and goes through the reals.
-/
import Idealize.ShloMosaic.PureOps.Ideal

noncomputable section

namespace Cert.SumExchange

open Idealize.ShloMosaic

variable {ι κ : Type} [Fintype ι] [Fintype κ]

/-- The inclusion of the reals in the extended reals commutes with a finite sum. -/
theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplying a row by a matrix and then by a weight row, summed, is the row against the weighted matrix:
    Σ_n (Σ_d x_d · J_{n,d}) · w_n = Σ_d x_d · (Σ_n w_n · J_{n,d}). -/
theorem row_through (x : ι → ℝ) (w : κ → ℝ) (J : κ → ι → ℝ) :
    ∑ n, (∑ d, x d * J n d) * w n = ∑ d, x d * ∑ n, w n * J n d := by
  simp only [Finset.sum_mul, Finset.mul_sum]
  rw [Finset.sum_comm]
  exact Finset.sum_congr rfl fun d _ => Finset.sum_congr rfl fun n _ => by ring

/-- THE LAW over the reals. -/
theorem real_law (x : ι → ℝ) (wre wim : κ → ℝ) (rej imj : κ → ι → ℝ) (r : ℝ) :
    ∑ d, x d * ((∑ n, wre n * rej n d - ∑ n, wim n * imj n d) * r)
      = (∑ n, (∑ d, x d * rej n d) * wre n - ∑ n, (∑ d, x d * imj n d) * wim n) * r := by
  rw [row_through, row_through, ← Finset.sum_sub_distrib, Finset.sum_mul]
  exact Finset.sum_congr rfl fun d _ => by ring

/-- The law for real families, read in the extended reals. -/
theorem coe_law (x : ι → ℝ) (wre wim : κ → ℝ) (rej imj : κ → ι → ℝ) (r : ℝ) :
    ∑ d, (x d : EReal) * ((∑ n, (wre n : EReal) * (rej n d : EReal) - ∑ n, (wim n : EReal) * (imj n d : EReal)) * (r : EReal))
      = (∑ n, (∑ d, (x d : EReal) * (rej n d : EReal)) * (wre n : EReal)
          - ∑ n, (∑ d, (x d : EReal) * (imj n d : EReal)) * (wim n : EReal)) * (r : EReal) := by
  simp only [← EReal.coe_mul, ← coe_sum, ← EReal.coe_sub]
  exact congrArg _ (real_law x wre wim rej imj r)

/-- THE LAW for extended-real families every entry of which is finite. -/
theorem law_of_finite (x : ι → EReal) (wre wim : κ → EReal) (rej imj : κ → ι → EReal) (r : ℝ)
    (hx : ∀ d, x d ≠ ⊤ ∧ x d ≠ ⊥) (hwre : ∀ n, wre n ≠ ⊤ ∧ wre n ≠ ⊥) (hwim : ∀ n, wim n ≠ ⊤ ∧ wim n ≠ ⊥)
    (hrej : ∀ n d, rej n d ≠ ⊤ ∧ rej n d ≠ ⊥) (himj : ∀ n d, imj n d ≠ ⊤ ∧ imj n d ≠ ⊥) :
    ∑ d, x d * ((∑ n, wre n * rej n d - ∑ n, wim n * imj n d) * (r : EReal))
      = (∑ n, (∑ d, x d * rej n d) * wre n - ∑ n, (∑ d, x d * imj n d) * wim n) * (r : EReal) := by
  have ex : x = fun d => (((x d).toReal : ℝ) : EReal) := funext fun d => (EReal.coe_toReal (hx d).1 (hx d).2).symm
  have ewre : wre = fun n => (((wre n).toReal : ℝ) : EReal) := funext fun n => (EReal.coe_toReal (hwre n).1 (hwre n).2).symm
  have ewim : wim = fun n => (((wim n).toReal : ℝ) : EReal) := funext fun n => (EReal.coe_toReal (hwim n).1 (hwim n).2).symm
  have erej : rej = fun n d => (((rej n d).toReal : ℝ) : EReal) :=
    funext fun n => funext fun d => (EReal.coe_toReal (hrej n d).1 (hrej n d).2).symm
  have eimj : imj = fun n d => (((imj n d).toReal : ℝ) : EReal) :=
    funext fun n => funext fun d => (EReal.coe_toReal (himj n d).1 (himj n d).2).symm
  rw [ex, ewre, ewim, erej, eimj]
  exact coe_law _ _ _ _ _ r

end Cert.SumExchange

end
-- ==== Proof.Synthesis.lean ====
/-
  The result as one function of the five argument arrays, in the two arrangements the two programs compute it in.
  With b a row of x (262144 of them), k an output column, d the 101 coefficient positions and n the 101 spectrum
  positions, and r = 1/101:

    unfolded  (the reference):  ( Σ_n (Σ_d x[b,d]·ReJ[n,d])·Wre[k,n]  −  Σ_n (Σ_d x[b,d]·ImJ[n,d])·Wim[k,n] ) · r
    folded    (the kernel):     Σ_d x[b,d] · ( (Σ_n Wre[k,n]·ReJ[n,d]  −  Σ_n Wim[k,n]·ImJ[n,d]) · r )

  The reference joins the coefficients into a spectrum and then takes the real part of its inverse transform; the
  kernel multiplies x by the one 101×101 matrix those steps amount to. For finite entries they agree
  (SumExchange.law_of_finite), row by row and column by column.
-/
import proofs.«167064_j26577257627813_2_alg».proof.Proof.SumExchange
import Idealize.ShloMosaic.Lib.ValueIdx

noncomputable section

namespace Cert.Synthesis

open Idealize.ShloMosaic Idealize.ShloMosaic.ValueIdx

/-- Index type of x and of the result before its trailing unit axis. -/
abbrev Rows : Type := (⟨2, ![262144, 101]⟩ : Shape).Idx
/-- Index type of each of the four 101 × 101 matrices. -/
abbrev Sq : Type := (⟨2, ![101, 101]⟩ : Shape).Idx

/-- The scale both programs apply: the real 1/101. -/
abbrev scale : EReal := ((1 / 101 : ℝ) : EReal)

/-- The reference's arrangement. -/
def unfolded (X : Rows → EReal) (Wre Wim ReJ ImJ : Sq → EReal) : Rows → EReal := fun i =>
  (∑ n : Fin 101, (∑ d : Fin 101, X (ix2 (i 0) d) * ReJ (ix2 n d)) * Wre (ix2 (i 1) n)
    - ∑ n : Fin 101, (∑ d : Fin 101, X (ix2 (i 0) d) * ImJ (ix2 n d)) * Wim (ix2 (i 1) n)) * scale

/-- The combined matrix the kernel's host code prepares, already transposed: entry (d, k). -/
def combined (Wre Wim ReJ ImJ : Sq → EReal) (d k : Fin 101) : EReal :=
  (∑ n : Fin 101, Wre (ix2 k n) * ReJ (ix2 n d) - ∑ n : Fin 101, Wim (ix2 k n) * ImJ (ix2 n d)) * scale

/-- The kernel's arrangement: a row of x against a column of the combined matrix. -/
def folded (X : Rows → EReal) (Wre Wim ReJ ImJ : Sq → EReal) : Rows → EReal := fun i =>
  ∑ d : Fin 101, X (ix2 (i 0) d) * combined Wre Wim ReJ ImJ d (i 1)

/-- For finite entries the two arrangements are one function. -/
theorem folded_eq_unfolded (X : Rows → EReal) (Wre Wim ReJ ImJ : Sq → EReal)
    (hX : ∀ i, X i ≠ ⊤ ∧ X i ≠ ⊥) (hWre : ∀ i, Wre i ≠ ⊤ ∧ Wre i ≠ ⊥) (hWim : ∀ i, Wim i ≠ ⊤ ∧ Wim i ≠ ⊥)
    (hReJ : ∀ i, ReJ i ≠ ⊤ ∧ ReJ i ≠ ⊥) (hImJ : ∀ i, ImJ i ≠ ⊤ ∧ ImJ i ≠ ⊥) :
    folded X Wre Wim ReJ ImJ = unfolded X Wre Wim ReJ ImJ := by
  funext i
  exact Cert.SumExchange.law_of_finite (fun d => X (ix2 (i 0) d)) (fun n => Wre (ix2 (i 1) n)) (fun n => Wim (ix2 (i 1) n))
    (fun n d => ReJ (ix2 n d)) (fun n d => ImJ (ix2 n d)) (1 / 101)
    (fun d => hX _) (fun n => hWre _) (fun n => hWim _) (fun n d => hReJ _) (fun n d => hImJ _)

end Cert.Synthesis

end
-- ==== Proof.Hundred.lean ====
/-
  The one float constant both programs spell: the divisor 101.0, whose pattern denotes the real number 101.
  Stated once here so that the definition of a pattern's value is unfolded in a single module.
-/
import Idealize.ShloMosaic.PureOps.Ideal

noncomputable section

namespace Cert.Hundred

open Idealize.ShloMosaic

/-- The pattern of `101.0` (sign 0, exponent 133, fraction 0x4A0000: 2^6 · 1.578125) denotes the real `101`. -/
theorem ofBits_101 : Ideal.ofBits .f32 0x42CA0000#32 = ((101 : ℝ) : EReal) := by
  simp [Ideal.ofBits, Ideal.ieee, -EReal.coe_mul]; norm_num

/-- Dividing an extended real by that constant is multiplying it by the real `1/101`, at the infinities too. -/
theorem div_101 (a : EReal) : Ideal.div a (Ideal.ofBits .f32 0x42CA0000#32) = a * ((1 / 101 : ℝ) : EReal) := by
  rw [ofBits_101]
  exact Ideal.div_coe (by norm_num) a

end Cert.Hundred

end
-- ==== Proof.ReferenceSums.lean ====
/-
  The reference, read at an index. Its six arithmetic stages — two products of x with ReJ and ImJ, two products of
  those with Wre and Wim, a difference, a quotient by 101 — read index by index are the `unfolded` arrangement:
  each product is a sum over the contracted position, the difference and quotient act entry by entry, and the
  quotient by the real 101 is the product with 1/101.
-/
import proofs.«167064_j26577257627813_2_alg».proof.Proof.Gen.ReferenceIdeal.Read
import proofs.«167064_j26577257627813_2_alg».proof.Proof.Synthesis
import proofs.«167064_j26577257627813_2_alg».proof.Proof.Hundred

noncomputable section

namespace Cert.ReferenceIdeal.Sums

open Idealize.ShloMosaic Idealize.ShloMosaic.ValueIdx Cert.ReferenceIdeal Cert.ReferenceIdeal.Read Cert.Synthesis

/-- The operand positions of each product, as (row, contracted position) and (column, contracted position). -/
theorem lidx0 (i : S262144x101.Idx) (k : Fin 101) : lidx_main_v0 i k = ix2 (i 0) k :=
  funext fun a => Fin.ext (by match a with | ⟨0, _⟩ => rfl | ⟨1, _⟩ => rfl)
theorem ridx0 (i : S262144x101.Idx) (k : Fin 101) : ridx_main_v0 i k = ix2 (i 1) k :=
  funext fun a => Fin.ext (by match a with | ⟨0, _⟩ => rfl | ⟨1, _⟩ => rfl)
theorem lidx1 (i : S262144x101.Idx) (k : Fin 101) : lidx_main_v1 i k = ix2 (i 0) k :=
  funext fun a => Fin.ext (by match a with | ⟨0, _⟩ => rfl | ⟨1, _⟩ => rfl)
theorem ridx1 (i : S262144x101.Idx) (k : Fin 101) : ridx_main_v1 i k = ix2 (i 1) k :=
  funext fun a => Fin.ext (by match a with | ⟨0, _⟩ => rfl | ⟨1, _⟩ => rfl)
theorem lidx2 (i : S262144x101.Idx) (k : Fin 101) : lidx_main_v2 i k = ix2 (i 0) k :=
  funext fun a => Fin.ext (by match a with | ⟨0, _⟩ => rfl | ⟨1, _⟩ => rfl)
theorem ridx2 (i : S262144x101.Idx) (k : Fin 101) : ridx_main_v2 i k = ix2 (i 1) k :=
  funext fun a => Fin.ext (by match a with | ⟨0, _⟩ => rfl | ⟨1, _⟩ => rfl)
theorem lidx3 (i : S262144x101.Idx) (k : Fin 101) : lidx_main_v3 i k = ix2 (i 0) k :=
  funext fun a => Fin.ext (by match a with | ⟨0, _⟩ => rfl | ⟨1, _⟩ => rfl)
theorem ridx3 (i : S262144x101.Idx) (k : Fin 101) : ridx_main_v3 i k = ix2 (i 1) k :=
  funext fun a => Fin.ext (by match a with | ⟨0, _⟩ => rfl | ⟨1, _⟩ => rfl)

/-- The reference's quotient stage is the `unfolded` arrangement of its five arguments
    (x, Wre, Wim, ReJ, ImJ in the order of the program's parameters). -/
theorem quotient_eq (x0 : (⟨S262144x101, .f32⟩ : BufTy).Contents (Elt Ideal))
    (x1 x2 x3 x4 : (⟨S101x101, .f32⟩ : BufTy).Contents (Elt Ideal)) :
    val_main_v6 (F := Ideal) x0 x1 x2 x3 x4 = unfolded x0 x1 x2 x3 x4 := by
  funext i
  -- the two inner products, at the row of i and the spectrum position k
  have e0 : ∀ k : Fin 101, val_main_v0 (F := Ideal) x0 x3 (lidx_main_v2 i k)
      = ∑ d : Fin 101, x0 (ix2 (i 0) d) * x3 (ix2 k d) := fun k => by
    rw [val_main_v0_apply]
    exact Finset.sum_congr rfl fun d _ => by rw [lidx0, ridx0]; rfl
  have e1 : ∀ k : Fin 101, val_main_v1 (F := Ideal) x0 x4 (lidx_main_v3 i k)
      = ∑ d : Fin 101, x0 (ix2 (i 0) d) * x4 (ix2 k d) := fun k => by
    rw [val_main_v1_apply]
    exact Finset.sum_congr rfl fun d _ => by rw [lidx1, ridx1]; rfl
  -- the outer products, the difference, the quotient
  rw [val_main_v6_apply, val_main_v4_apply, val_main_v2_apply, val_main_v3_apply, val_main_v5_apply, val_main_cst_apply]
  simp only [e0, e1, ridx2, ridx3, Ideal.hostDivf_def, Ideal.subf_def, Ideal.ofBits_def, Cert.Hundred.div_101]
  rfl

end Cert.ReferenceIdeal.Sums

end
-- ==== Proof.RowBlocks.lean ====
/-
  The kernel's launch, block by block. The grid has 16 points; point t takes rows 16384·t … 16384·t + 16383 of x (all
  101 columns), the whole prepared 101 × 101 matrix, and writes the same rows of the result. The body multiplies
  its block of x by the matrix into a zero accumulator, so entry (p, k) of what it stores is the sum over d of
  x-block[p, d] · matrix[d, k]. Hence every point's block is the restriction to its rows of ONE function of the whole
  arrays — row b of x against column k of the matrix — and since the 16 row ranges cover all 262144 rows, the result
  array ends holding that function.
-/
import proofs.«167064_j26577257627813_2_alg».proof.Proof.Gen.KernelIdeal.Frame
import proofs.«167064_j26577257627813_2_alg».proof.Proof.Synthesis
import Idealize.ShloMosaic.Lib.Pipeline.Value
import Idealize.ShloMosaic.Lib.ValueIdx
import Idealize.ShloMosaic.PureOps.Ideal.Laws

set_option maxRecDepth 16384

noncomputable section

namespace Cert.KernelIdeal.Blocks

open Idealize.ShloMosaic Idealize.ShloMosaic.TcCoe Idealize.SL.Sem
open Idealize.ShloMosaic.Pipeline (Dat)
open Idealize.ShloMosaic.ValueIdx
open Cert.KernelIdeal Cert.KernelIdeal.Gen Cert.Synthesis

/-! ## The body's product at an index -/

/-- The block of x is read at (row of the result, shared position), -/
theorem blk_lhs0 (j : S16384x101.Idx) (q : dot_S16384x101_S101x101_S16384x101_1_0_0_1_n_n.contr.Idx) :
    (dot_S16384x101_S101x101_S16384x101_1_0_0_1_n_n.lhsIdx j q 0).val = (j 0).val := by
  unfold DotDims.lhsIdx
  rw [dif_neg (show ¬(0 : Fin S16384x101.rank) ∈ dot_S16384x101_S101x101_S16384x101_1_0_0_1_n_n.lhsBatch by decide),
    dif_pos (show (0 : Fin S16384x101.rank) ∈ dot_S16384x101_S101x101_S16384x101_1_0_0_1_n_n.lhsNonContracting by decide)]
  rfl
theorem blk_lhs1 (j : S16384x101.Idx) (q : dot_S16384x101_S101x101_S16384x101_1_0_0_1_n_n.contr.Idx) :
    (dot_S16384x101_S101x101_S16384x101_1_0_0_1_n_n.lhsIdx j q 1).val = (q ⟨0, by decide⟩).val :=
  dot_S16384x101_S101x101_S16384x101_1_0_0_1_n_n.lhsIdx_val_of_single rfl j q
/-- and the matrix at (shared position, column of the result). -/
theorem blk_rhs0 (j : S16384x101.Idx) (q : dot_S16384x101_S101x101_S16384x101_1_0_0_1_n_n.contr.Idx) :
    (dot_S16384x101_S101x101_S16384x101_1_0_0_1_n_n.rhsIdx j q 0).val = (q ⟨0, by decide⟩).val :=
  dot_S16384x101_S101x101_S16384x101_1_0_0_1_n_n.rhsIdx_val_of_single rfl j q
theorem blk_rhs1 (j : S16384x101.Idx) (q : dot_S16384x101_S101x101_S16384x101_1_0_0_1_n_n.contr.Idx) :
    (dot_S16384x101_S101x101_S16384x101_1_0_0_1_n_n.rhsIdx j q 1).val = (j 1).val := by
  unfold DotDims.rhsIdx
  rw [dif_neg (show ¬(1 : Fin S101x101.rank) ∈ dot_S16384x101_S101x101_S16384x101_1_0_0_1_n_n.rhsBatch by decide),
    dif_pos (show (1 : Fin S101x101.rank) ∈ dot_S16384x101_S101x101_S16384x101_1_0_0_1_n_n.rhsNonContracting by decide)]
  rfl

/-- Entry (p, k) of what the body stores: the sum over the shared position d of block[p, d] · matrix[d, k]
    (the accumulator is the zero splat; the body's cast of the matrix to its own shape is the identity). -/
theorem payload_apply (x0 : Vec Ideal S16384x101 .f32) (x1 : Vec Ideal S101x101 .f32) (p : Fin 16384) (k : Fin 101) :
    k0_pay1 x0 x1 (ix2 p k) = ∑ d : Fin 101, x0 (ix2 p d) * x1 (ix2 d k) := by
  unfold k0_pay1
  refine (Ideal.matmul_constant_zero_apply dot_S16384x101_S101x101_S16384x101_1_0_0_1_n_n none x0
    (shapeCast S101x101 x1 shapeCasts_S101x101_S101x101) (ix2 p k)).trans ?_
  rw [shapeCast_self, ← Equiv.sum_comp (ValueIdx.contrEquiv1 dot_S16384x101_S101x101_S16384x101_1_0_0_1_n_n 101 rfl rfl).symm]
  refine Finset.sum_congr rfl fun d _ => ?_
  have hd := ValueIdx.contrEquiv1_symm_val dot_S16384x101_S101x101_S16384x101_1_0_0_1_n_n 101 rfl rfl d
  have el : dot_S16384x101_S101x101_S16384x101_1_0_0_1_n_n.lhsIdx (ix2 p k) ((ValueIdx.contrEquiv1 dot_S16384x101_S101x101_S16384x101_1_0_0_1_n_n 101 rfl rfl).symm d) = ix2 p d :=
    funext fun a => Fin.ext (by
      match a with
      | ⟨0, _⟩ => exact blk_lhs0 _ _
      | ⟨1, _⟩ => exact (blk_lhs1 _ _).trans hd)
  have er : dot_S16384x101_S101x101_S16384x101_1_0_0_1_n_n.rhsIdx (ix2 p k) ((ValueIdx.contrEquiv1 dot_S16384x101_S101x101_S16384x101_1_0_0_1_n_n 101 rfl rfl).symm d) = ix2 d k :=
    funext fun a => Fin.ext (by
      match a with
      | ⟨0, _⟩ => exact (blk_rhs0 _ _).trans hd
      | ⟨1, _⟩ => exact blk_rhs1 _ _)
  rw [el, er]

/-! ## One function of the whole arrays -/

/-- Row `i 0` of a 262144 × 101 array against column `i 1` of a 101 × 101 matrix. -/
def rowsTimes (X : Rows → EReal) (A : Sq → EReal) : Rows → EReal := fun i =>
  ∑ d : Fin 101, X (ix2 (i 0) d) * A (ix2 d (i 1))

/-- At one entry: if the block's row y 0 is the array's row i 0 and the block's matrix is the array's at column i 1
    (y 1 = i 1 in the use), what the body stores at y is the whole-array function at i. -/
theorem stored_at (x0 : Vec Ideal S16384x101 .f32) (x1 : Vec Ideal S101x101 .f32) (X : Rows → EReal) (A : Sq → EReal)
    (y : S16384x101.Idx) (i : Rows)
    (h0 : ∀ d : Fin 101, x0 (ix2 (y 0) d) = X (ix2 (i 0) d))
    (h1 : ∀ d : Fin 101, x1 (ix2 d (y 1)) = A (ix2 d (i 1))) :
    k0_pay1 x0 x1 y = rowsTimes X A i := by
  have hy : k0_pay1 x0 x1 y = k0_pay1 x0 x1 (ix2 (y 0) (y 1)) := congrArg _ (eq_ix2 y)
  refine hy.trans ((payload_apply x0 x1 (y 0) (y 1)).trans ?_)
  exact Finset.sum_congr rfl fun d _ => congrArg₂ (· * ·) (h0 d) (h1 d)

/-! ## From blocks to the array -/

variable (m : (ℓ : Loc nD τ sig) → Buf (Elt Ideal) ℓ)

theorem origin : (![0, 0] : Fin 2 → Nat) = fun _ => 0 := funext fun a => by fin_cases a <;> rfl

/-- The printed index maps over the grid: point t takes row block t of x and of the result (column block 0), and
    block (0, 0) of the matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of `rowsTimes` of x and the matrix as the launch finds them. -/
theorem flushed_eq (c : Dev nD) (t : Fin cfg0.N) :
    (dats m 0 c).flushed 2 t
      = ((cfg0.win 2).blk t).view.read (Elt Ideal) (rowsTimes (V m c main_arg0) (V m c main_call0_v5)) := by
  show (cfg0.win 2).cut (grid0.coords t) ((dats m 0 c).after 2 t) = _
  rw [after0_2]
  unfold out0_2
  rw [View.canon_unit_zero origin]
  simp only [View.ld_unit_zero (S := S16384x101) origin, View.ld_unit_zero (S := S101x101) origin]
  obtain ⟨e00, e01, e10, e11, e20, e21⟩ := block_indices t
  funext j
  show k0_pay1 (iblk m c 0 t) (iblk m c 1 t) j
    = rowsTimes (V m c main_arg0) (V m c main_call0_v5) (((cfg0.win 2).blk t).view.emb j)
  refine stored_at (iblk m c 0 t) (iblk m c 1 t) (V m c main_arg0) (V m c main_call0_v5) j
    (((cfg0.win 2).blk t).view.emb j) (fun d => ?_) (fun d => ?_)
  · show V m c main_arg0 (((cfg0.win 0).blk t).view.emb (ix2 (j 0) d))
      = V m c main_arg0 (ix2 ((((cfg0.win 2).blk t).view.emb j) 0) d)
    refine congrArg _ (funext fun a => Fin.ext ?_)
    match a with
    | ⟨0, _⟩ =>
      show win0_0.index t (0 : Fin 2) * 16384 + 1 * (j 0).val = win0_2.index t (0 : Fin 2) * 16384 + 1 * (j 0).val
      omega
    | ⟨1, _⟩ =>
      show win0_0.index t (1 : Fin 2) * 101 + 1 * d.val = d.val
      omega
  · show V m c main_call0_v5 (((cfg0.win 1).blk t).view.emb (ix2 d (j 1)))
      = V m c main_call0_v5 (ix2 d ((((cfg0.win 2).blk t).view.emb j) 1))
    refine congrArg _ (funext fun a => Fin.ext ?_)
    match a with
    | ⟨0, _⟩ =>
      show win0_1.index t (0 : Fin 2) * 101 + 1 * d.val = d.val
      omega
    | ⟨1, _⟩ =>
      show win0_1.index t (1 : Fin 2) * 101 + 1 * (j 1).val = win0_2.index t (1 : Fin 2) * 101 + 1 * (j 1).val
      omega

/-- An index of the result is in point t's block iff each coordinate is in the block's range on its axis. -/
theorem mem_block (t : Fin cfg0.N) (i : S262144x101.Idx) :
    i ∈ ((cfg0.win 2).blk t).view.set ↔ ∀ a : Fin 2, win0_2.index t a * S16384x101.size a ≤ (i a).val
      ∧ (i a).val < win0_2.index t a * S16384x101.size a + S16384x101.size a := by
  show i ∈ ((View.whole main_call0_v6).slice (win0_2.rect t)).set ↔ _
  rw [View.set_slice_whole, Rect.mem_set_unit]
  exact Iff.rfl

/-- Every row is in some point's block: row b in that of point b / 16384. -/
theorem covered (i : S262144x101.Idx) :
    ∃ t : Fin cfg0.N, (cfg0.win 2).flush t = true ∧ i ∈ ((cfg0.win 2).blk t).view.set := by
  have hi0 : (i 0).val < 262144 := idx2_lt0 i
  have hi1 : (i 1).val < 101 := idx2_lt1 i
  have hN : cfg0.N = 16 := N_0
  let t : Fin cfg0.N := ⟨(i 0).val / 16384, by rw [hN]; omega⟩
  obtain ⟨e00, e01, e10, e11, e20, e21⟩ := block_indices t
  have e20' : win0_2.index t (0 : Fin 2) = (i 0).val / 16384 := e20
  refine ⟨t, flush0_2 t, ?_⟩
  rw [mem_block]
  intro a
  match a with
  | ⟨0, _⟩ =>
    show win0_2.index t (0 : Fin 2) * 16384 ≤ (i 0).val ∧ (i 0).val < win0_2.index t (0 : Fin 2) * 16384 + 16384
    omega
  | ⟨1, _⟩ =>
    show win0_2.index t (1 : Fin 2) * 101 ≤ (i 1).val ∧ (i 1).val < win0_2.index t (1 : Fin 2) * 101 + 101
    omega

/-- THE RESULT ARRAY after the launch: `rowsTimes` of x and the matrix as the launch finds them. -/
theorem final (c : Dev nD) :
    (dats m 0 c).arrAt 2 cfg0.N = rowsTimes (V m c main_arg0) (V m c main_call0_v5) :=
  (dats m 0 c).arrAt_eq_of_cover 2 _ (fun t _ => flushed_eq m c t) covered

end Cert.KernelIdeal.Blocks

end
-- ==== Proof.CombinedMatrix.lean ====
/-
  The 101 × 101 matrix the kernel's host code prepares before the launch, read at an index.
  The host code multiplies Wre by ReJ and Wim by ImJ, subtracts, transposes and divides by 101; so its entry (d, k) is
      (Σ_n Wre[k,n]·ReJ[n,d] − Σ_n Wim[k,n]·ImJ[n,d]) · (1/101),
  the `combined` matrix of the `folded` arrangement: a product of two square matrices at (k, d) is the sum over
  the shared position n, the transpose swaps the two coordinates, the difference and the quotient act entry by
  entry, and the quotient by the real 101 is the product with 1/101.
-/
import proofs.«167064_j26577257627813_2_alg».proof.Proof.Gen.KernelIdeal.Frame
import proofs.«167064_j26577257627813_2_alg».proof.Proof.Synthesis
import proofs.«167064_j26577257627813_2_alg».proof.Proof.Hundred
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.Prepared

open Idealize.ShloMosaic Idealize.ShloMosaic.TcCoe Idealize.SL.Sem Idealize.ShloMosaic.StableHlo
open Idealize.ShloMosaic.ValueIdx
open Cert.KernelIdeal Cert.KernelIdeal.Gen Cert.Synthesis

/-! ## A product of two 101 × 101 matrices at an index -/

/-- The left operand is read at (row of the result, shared position), -/
theorem sq_lhs0 (j : S101x101.Idx) (q : dot_S101x101_S101x101_S101x101_1_0_0_1_n_n.contr.Idx) :
    (dot_S101x101_S101x101_S101x101_1_0_0_1_n_n.lhsIdx j q 0).val = (j 0).val := by
  unfold DotDims.lhsIdx
  rw [dif_neg (show ¬(0 : Fin S101x101.rank) ∈ dot_S101x101_S101x101_S101x101_1_0_0_1_n_n.lhsBatch by decide),
    dif_pos (show (0 : Fin S101x101.rank) ∈ dot_S101x101_S101x101_S101x101_1_0_0_1_n_n.lhsNonContracting by decide)]
  rfl
theorem sq_lhs1 (j : S101x101.Idx) (q : dot_S101x101_S101x101_S101x101_1_0_0_1_n_n.contr.Idx) :
    (dot_S101x101_S101x101_S101x101_1_0_0_1_n_n.lhsIdx j q 1).val = (q ⟨0, by decide⟩).val :=
  dot_S101x101_S101x101_S101x101_1_0_0_1_n_n.lhsIdx_val_of_single rfl j q
/-- and the right operand at (shared position, column of the result). -/
theorem sq_rhs0 (j : S101x101.Idx) (q : dot_S101x101_S101x101_S101x101_1_0_0_1_n_n.contr.Idx) :
    (dot_S101x101_S101x101_S101x101_1_0_0_1_n_n.rhsIdx j q 0).val = (q ⟨0, by decide⟩).val :=
  dot_S101x101_S101x101_S101x101_1_0_0_1_n_n.rhsIdx_val_of_single rfl j q
theorem sq_rhs1 (j : S101x101.Idx) (q : dot_S101x101_S101x101_S101x101_1_0_0_1_n_n.contr.Idx) :
    (dot_S101x101_S101x101_S101x101_1_0_0_1_n_n.rhsIdx j q 1).val = (j 1).val := by
  unfold DotDims.rhsIdx
  rw [dif_neg (show ¬(1 : Fin S101x101.rank) ∈ dot_S101x101_S101x101_S101x101_1_0_0_1_n_n.rhsBatch by decide),
    dif_pos (show (1 : Fin S101x101.rank) ∈ dot_S101x101_S101x101_S101x101_1_0_0_1_n_n.rhsNonContracting by decide)]
  rfl

/-- Entry (k, d) of the product of two square matrices is the sum over the shared position. -/
theorem sq_product_apply (l r : FVec Ideal S101x101 .f32) (k d : Fin 101) :
    Host.dotGeneral dot_S101x101_S101x101_S101x101_1_0_0_1_n_n none l r (ix2 k d) = ∑ n : Fin 101, l (ix2 k n) * r (ix2 n d) := by
  simp only [Host.dotGeneral]
  rw [Ideal.dotGeneral_apply, ← Equiv.sum_comp (ValueIdx.contrEquiv1 dot_S101x101_S101x101_S101x101_1_0_0_1_n_n 101 rfl rfl).symm]
  refine Finset.sum_congr rfl fun n _ => ?_
  have hn := ValueIdx.contrEquiv1_symm_val dot_S101x101_S101x101_S101x101_1_0_0_1_n_n 101 rfl rfl n
  have el : dot_S101x101_S101x101_S101x101_1_0_0_1_n_n.lhsIdx (ix2 k d) ((ValueIdx.contrEquiv1 dot_S101x101_S101x101_S101x101_1_0_0_1_n_n 101 rfl rfl).symm n) = ix2 k n :=
    funext fun a => Fin.ext (by
      match a with
      | ⟨0, _⟩ => exact sq_lhs0 _ _
      | ⟨1, _⟩ => exact (sq_lhs1 _ _).trans hn)
  have er : dot_S101x101_S101x101_S101x101_1_0_0_1_n_n.rhsIdx (ix2 k d) ((ValueIdx.contrEquiv1 dot_S101x101_S101x101_S101x101_1_0_0_1_n_n 101 rfl rfl).symm n) = ix2 n d :=
    funext fun a => Fin.ext (by
      match a with
      | ⟨0, _⟩ => exact (sq_rhs0 _ _).trans hn
      | ⟨1, _⟩ => exact sq_rhs1 _ _)
  rw [el, er]

/-! ## The prepared matrix -/

/-- The host code's term: the quotient by 101 of the transposed difference of the two products. -/
def prepared (wre wim rej imj : FVec Ideal S101x101 .f32) : FVec Ideal S101x101 .f32 :=
  Host.divf
    (transpose S101x101 [1, 0]
      (subf (Host.dotGeneral dot_S101x101_S101x101_S101x101_1_0_0_1_n_n none wre rej) (Host.dotGeneral dot_S101x101_S101x101_S101x101_1_0_0_1_n_n none wim imj))
      transposes_S101x101_S101x101_1_0)
    (broadcastInDim S101x101 ![] bcast_S_S101x101 (constant (F := Ideal) S_ .f32 0x42CA0000#32))

/-- Its entry (d, k) is the `combined` matrix's. -/
theorem prepared_apply (wre wim rej imj : FVec Ideal S101x101 .f32) (d k : Fin 101) :
    prepared wre wim rej imj (ix2 d k) = combined wre wim rej imj d k := by
  have ht : transpose S101x101 [1, 0]
        (subf (Host.dotGeneral dot_S101x101_S101x101_S101x101_1_0_0_1_n_n none wre rej) (Host.dotGeneral dot_S101x101_S101x101_S101x101_1_0_0_1_n_n none wim imj))
        transposes_S101x101_S101x101_1_0 (ix2 d k)
      = (subf (Host.dotGeneral dot_S101x101_S101x101_S101x101_1_0_0_1_n_n none wre rej) (Host.dotGeneral dot_S101x101_S101x101_S101x101_1_0_0_1_n_n none wim imj)) (ix2 k d) :=
    transpose_apply [1, 0] _ transposes_S101x101_S101x101_1_0 (ix2 d k) (ix2 k d)
      (fun b => by match b with | ⟨0, _⟩ => rfl | ⟨1, _⟩ => rfl)
  have hb : broadcastInDim S101x101 ![] bcast_S_S101x101 (constant (F := Ideal) S_ .f32 0x42CA0000#32) (ix2 d k)
      = Ideal.ofBits .f32 0x42CA0000#32 :=
    broadcastInDim_apply _ bcast_S_S101x101 _ (ix2 d k) (fun a => a.elim0) (fun a => a.elim0)
  show Ideal.div
      (transpose S101x101 [1, 0]
        (subf (Host.dotGeneral dot_S101x101_S101x101_S101x101_1_0_0_1_n_n none wre rej) (Host.dotGeneral dot_S101x101_S101x101_S101x101_1_0_0_1_n_n none wim imj))
        transposes_S101x101_S101x101_1_0 (ix2 d k))
      (broadcastInDim S101x101 ![] bcast_S_S101x101 (constant (F := Ideal) S_ .f32 0x42CA0000#32) (ix2 d k)) = _
  rw [ht, hb, Cert.Hundred.div_101]
  show (Host.dotGeneral dot_S101x101_S101x101_S101x101_1_0_0_1_n_n none wre rej (ix2 k d) - Host.dotGeneral dot_S101x101_S101x101_S101x101_1_0_0_1_n_n none wim imj (ix2 k d)) * _ = _
  rw [sq_product_apply, sq_product_apply]
  rfl

variable (m : (ℓ : Loc nD τ sig) → Buf (Elt Ideal) ℓ)

/-- The launch finds the second operand's array holding the prepared matrix of the four small arguments. -/
theorem found (c : Dev nD) :
    (V m c main_call0_v5 : S101x101.Idx → EReal)
      = prepared (m ((c : Thread nD τ).loc main_arg1)) (m ((c : Thread nD τ).loc main_arg2))
          (m ((c : Thread nD τ).loc main_arg3)) (m ((c : Thread nD τ).loc main_arg4)) := by
  show StableHlo.after hostOps0 (fun b => m (c, b)) (Proc.devRef .tc main_call0_v5) = _
  unfold prepared
  after_results
  rfl

end Cert.KernelIdeal.Prepared

end
-- ==== Proof.KernelResult.lean ====
/-
  The kernel program's run, read. After the launch the result array holds, at (b, k), row b of x against column k
  of the prepared matrix (RowBlocks), and the prepared matrix's entry (d, k) is the `combined` one (CombinedMatrix): so
  the array is the `folded` arrangement of the five arguments. The one host operation after the launch appends a
  unit axis to it. The arguments end as they began.
-/
import proofs.«167064_j26577257627813_2_alg».proof.Proof.RowBlocks
import proofs.«167064_j26577257627813_2_alg».proof.Proof.CombinedMatrix
import Idealize.ShloMosaic.Lib.StableHlo.Run

noncomputable section

namespace Cert.KernelIdeal.Result

open Idealize.ShloMosaic Idealize.ShloMosaic.TcCoe Idealize.SL.Sem Idealize.ShloMosaic.StableHlo
open Idealize.ShloMosaic.Pipeline (Dat)
open Cert.KernelIdeal Cert.KernelIdeal.Gen Cert.Synthesis

variable (m : (ℓ : Loc nD τ sig) → Buf (Elt Ideal) ℓ) (ρ : Dev nD → PrngReg)

/-- Rows against the prepared matrix are the `folded` arrangement: the prepared matrix's entry (d, k) is the combined one. -/
theorem rowsTimes_prepared (X : Rows → EReal) (wre wim rej imj : FVec Ideal S101x101 .f32) :
    Blocks.rowsTimes X (Prepared.prepared wre wim rej imj) = folded X wre wim rej imj := by
  funext i
  exact Finset.sum_congr rfl fun d _ =>
    congrArg (fun z : EReal => X (ValueIdx.ix2 (i 0) d) * z) (Prepared.prepared_apply wre wim rej imj d (i 1))

/-- The result array after the launch is the `folded` arrangement of the arguments
    (x, Wre, Wim, ReJ, ImJ in the order of the program's parameters). -/
theorem launched (c : Dev nD) :
    (dats m 0 c).arrAt 2 cfg0.N
      = folded (m ((c : Thread nD τ).loc main_arg0)) (m ((c : Thread nD τ).loc main_arg1))
          (m ((c : Thread nD τ).loc main_arg2)) (m ((c : Thread nD τ).loc main_arg3))
          (m ((c : Thread nD τ).loc main_arg4)) := by
  have hX : (V m c main_arg0 : Rows → EReal) = m ((c : Thread nD τ).loc main_arg0) := V_main_arg0 m c
  have hA : (V m c main_call0_v5 : Sq → EReal)
      = Prepared.prepared (m ((c : Thread nD τ).loc main_arg1)) (m ((c : Thread nD τ).loc main_arg2))
          (m ((c : Thread nD τ).loc main_arg3)) (m ((c : Thread nD τ).loc main_arg4)) := Prepared.found m c
  refine (Blocks.final m c).trans ?_
  rw [hX, hA]
  exact rowsTimes_prepared _ _ _ _ _

/-- The host operation after the launch, applied to the arrays as the launch leaves them: the result array with a
    unit axis appended. -/
theorem tail_eq (c : Dev nD) :
    (Pipeline.afterTail₀ cfgs (dats m) 0 (V0 m) [hostOps1] c main_v0 : S262144x101x1.Idx → EReal)
      = broadcastInDim S262144x101x1 ![0, 1] bcast_S262144x101_S262144x101x1_0_1 ((dats m 0 c).arrAt 2 cfg0.N) := by
  unfold Pipeline.afterTail₀
  show StableHlo.after hostOps1 _ (Proc.devRef .tc main_v0) = _
  after_results
  -- the operation's operand is the result window's array, which the launch leaves at `arrAt 2`
  have hw := Pipeline.withArrays_arr spec0 launch0.win.arr_inj c (V0 m c) (fun w => (dats m 0 c).arrAt w cfg0.N) 2
  show broadcastInDim S262144x101x1 ![0, 1] bcast_S262144x101_S262144x101x1_0_1
    (Pipeline.withArrays spec0 c (V0 m c) (fun w => (dats m 0 c).arrAt w cfg0.N)
      (Proc.tc.devRef (Pipeline.arrRef spec0 2))) = _
  rw [hw]

/-- THE RUN: every weakly fair execution terminates with the result at the `folded` arrangement of the arguments, a
    unit axis appended, and the arguments unchanged. -/
theorem run : θ_run defs (onTc (τ := τ) (main (F := Ideal))) ⟨m, fun _ => 0, ρ⟩ fun r => ∀ c : Dev nD,
      r.2.mem ((c.tc : Thread nD τ).loc main_v0)
        = broadcastInDim S262144x101x1 ![0, 1] bcast_S262144x101_S262144x101x1_0_1
            (folded (m ((c : Thread nD τ).loc main_arg0)) (m ((c : Thread nD τ).loc main_arg1))
              (m ((c : Thread nD τ).loc main_arg2)) (m ((c : Thread nD τ).loc main_arg3))
              (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  by
  refine (θ_run defs _ _).mono (fun _ h c => ?_) (run_main m ρ)
  have hv := (h c).2 main_v0 (Pipeline.mem_restRefs_of main_v0 (by decide) (by decide))
  have h0 := ((h c).1 0).trans (((dats m 0 c).arrAt_in 0 rfl _).trans ((A_eq m c 0).trans (V_main_arg0 m c)))
  have h1 := ((h c).2 main_arg1 (Pipeline.mem_restRefs_of main_arg1 (by decide) (by decide))).trans (W_main_arg1 m (dats m) c)
  have h2 := ((h c).2 main_arg2 (Pipeline.mem_restRefs_of main_arg2 (by decide) (by decide))).trans (W_main_arg2 m (dats m) c)
  have h3 := ((h c).2 main_arg3 (Pipeline.mem_restRefs_of main_arg3 (by decide) (by decide))).trans (W_main_arg3 m (dats m) c)
  have h4 := ((h c).2 main_arg4 (Pipeline.mem_restRefs_of main_arg4 (by decide) (by decide))).trans (W_main_arg4 m (dats m) c)
  refine ⟨?_, h0, h1, h2, h3, h4⟩
  rw [hv, tail_eq m c, launched m c]

end Cert.KernelIdeal.Result

end
-- ==== Proof.lean ====
/-
  The kernel computes, for x of 262144 rows and 101 columns and four 101 × 101 matrices Wre, Wim, ReJ, ImJ,
      out[b, k] = ( Σ_n Wre[k,n] · (Σ_d ReJ[n,d]·x[b,d])  −  Σ_n Wim[k,n] · (Σ_d ImJ[n,d]·x[b,d]) ) / 101
  (the coefficients of each row joined into a spectrum by ReJ and ImJ, then the real part of its inverse transform),
  with a trailing unit axis. The reference computes exactly this chain. The kernel's host code first combines the four
  matrices into one, A[d,k] = (Σ_n Wre[k,n]·ReJ[n,d] − Σ_n Wim[k,n]·ImJ[n,d]) / 101, and its launch multiplies x by
  A, 16384 rows at a time. At the ideal values both are finite sums of products of the arguments, and for FINITE
  arguments — which the precondition gives — they are the same number by distributivity and the exchange of the
  two sums (SumExchange, Synthesis); the quotient by 101 is the product with the real 1/101 on both sides (Hundred).

  Modules: Hundred (the constant), SumExchange (the law), Synthesis (the two arrangements and their equality),
  Finite (the precondition gives finite entries), ReferenceSums (the reference is the unfolded arrangement),
  CombinedMatrix (the kernel's prepared matrix at an index), RowBlocks (the launch, from blocks to the array),
  KernelResult (the kernel program's run, read). Below: the five claims.
-/
import proofs.«167064_j26577257627813_2_alg».proof.Defs
import proofs.«167064_j26577257627813_2_alg».proof.Proof.Gen.Kernel
import proofs.«167064_j26577257627813_2_alg».proof.Proof.Gen.Kernel.Skeleton
import proofs.«167064_j26577257627813_2_alg».proof.Proof.Gen.Kernel.Launch
import proofs.«167064_j26577257627813_2_alg».proof.Proof.Gen.Kernel.Points
import proofs.«167064_j26577257627813_2_alg».proof.Proof.Gen.Kernel.Frame
import proofs.«167064_j26577257627813_2_alg».proof.Proof.Gen.KernelIdeal
import proofs.«167064_j26577257627813_2_alg».proof.Proof.Gen.KernelIdeal.Skeleton
import proofs.«167064_j26577257627813_2_alg».proof.Proof.Gen.KernelIdeal.Launch
import proofs.«167064_j26577257627813_2_alg».proof.Proof.Gen.KernelIdeal.Points
import proofs.«167064_j26577257627813_2_alg».proof.Proof.Gen.KernelIdeal.Frame
import proofs.«167064_j26577257627813_2_alg».proof.Proof.Gen.ReferenceIdeal
import proofs.«167064_j26577257627813_2_alg».proof.Proof.Gen.ReferenceIdeal.Run
import proofs.«167064_j26577257627813_2_alg».proof.Proof.Gen.ReferenceIdeal.Read
import proofs.«167064_j26577257627813_2_alg».proof.Proof.Gen.Pre_finite_inputs
import proofs.«167064_j26577257627813_2_alg».proof.Proof.Finite
import proofs.«167064_j26577257627813_2_alg».proof.Proof.ReferenceSums
import proofs.«167064_j26577257627813_2_alg».proof.Proof.KernelResult
import Idealize.ShloMosaic.Adequacy
import Idealize.ShloMosaic.Init

noncomputable section

namespace Cert.Proof

open Idealize.ShloMosaic Idealize.SL.Sem

/-- The word-level kernel program runs, faults nowhere and leaves its arguments: the generated frame. -/
theorem frame_kernel : Cert.frame_Kernel := fun m ρ _ => Cert.Kernel.Gen.frame m ρ

/-- The same of the kernel program read at the ideal values. -/
theorem frame_kernelIdeal : Cert.frame_KernelIdeal := fun m ρ _ => Cert.KernelIdeal.Gen.frame m ρ

/-- The reference has no launch: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it at the ideal values. -/
theorem preserves : Cert.preserves_Kernel_KernelIdeal := trivial

/-- From memories agreeing on the arguments both programs end with the `folded` arrangement of the arguments, a unit
    axis appended: the kernel by its run (KernelResult.run); the reference's quotient stage is the `unfolded`
    arrangement (ReferenceSums.quotient_eq), which for the finite arguments the precondition gives (Finite.of_pre) is
    the `folded` one (Synthesis.folded_eq_unfolded), and its last operation appends the same unit axis. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨f0, f1, f2, f3, f4⟩ := Cert.Finite.of_pre _ _ _ _ _ (hpre c)
  rw [a0, a1, a2, a3, a4, Cert.ReferenceIdeal.Read.val_main_v7_eq]
  unfold Cert.ReferenceIdeal.Read.val_main_v7
  rw [Cert.ReferenceIdeal.Sums.quotient_eq, ← Cert.Synthesis.folded_eq_unfolded _ _ _ _ _ f0 f1 f2 f3 f4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
